-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x256 .f32) (main_arg3 : FVec F S256 .f32) (main_arg4 : FVec F S256x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S10000x256 : Shape := ⟨2, ![10000, 256]⟩
abbrev S1000x512 : Shape := ⟨2, ![1000, 512]⟩
abbrev S1000x256 : Shape := ⟨2, ![1000, 256]⟩
abbrev S1x256 : Shape := ⟨2, ![1, 256]⟩
abbrev S200x10000 : Shape := ⟨2, ![200, 10000]⟩
abbrev S200x256 : Shape := ⟨2, ![200, 256]⟩
abbrev S10000x64 : Shape := ⟨2, ![10000, 64]⟩
abbrev S1000x64 : Shape := ⟨2, ![1000, 64]⟩
abbrev S1x64 : Shape := ⟨2, ![1, 64]⟩
abbrev S200x64 : Shape := ⟨2, ![200, 64]⟩

abbrev nBuf : Space → Nat
  | .hbm => 14
  | .vmem => 22
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S512x256, .bf16⟩
  | .hbm, ⟨7, _⟩ => ⟨S256x64, .bf16⟩
  | .hbm, ⟨8, _⟩ => ⟨S10000x256, .bf16⟩
  | .hbm, ⟨9, _⟩ => ⟨S1x256, .f32⟩
  | .hbm, ⟨10, _⟩ => ⟨S10000x256, .f32⟩
  | .hbm, ⟨11, _⟩ => ⟨S10000x64, .bf16⟩
  | .hbm, ⟨12, _⟩ => ⟨S1x64, .f32⟩
  | .hbm, ⟨13, _⟩ => ⟨S10000x64, .f32⟩
  | .local _ .vmem, ⟨0, _⟩ => ⟨S1000x512, .f32⟩
  | .local _ .vmem, ⟨1, _⟩ => ⟨S1000x512, .f32⟩
  | .local _ .vmem, ⟨2, _⟩ => ⟨S512x256, .bf16⟩
  | .local _ .vmem, ⟨3, _⟩ => ⟨S1000x256, .bf16⟩
  | .local _ .vmem, ⟨4, _⟩ => ⟨S1000x256, .bf16⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S1x256, .f32⟩
  | .local _ .vmem, ⟨9, _⟩ => ⟨S200x256, .f32⟩
  | .local _ .vmem, ⟨10, _⟩ => ⟨S200x256, .f32⟩
  | .local _ .vmem, ⟨11, _⟩ => ⟨S1000x256, .f32⟩
  | .local _ .vmem, ⟨12, _⟩ => ⟨S1000x256, .f32⟩
  | .local _ .vmem, ⟨13, _⟩ => ⟨S256x64, .bf16⟩
  | .local _ .vmem, ⟨14, _⟩ => ⟨S1000x64, .bf16⟩
  | .local _ .vmem, ⟨15, _⟩ => ⟨S1000x64, .bf16⟩
  | .local _ .vmem, ⟨16, _⟩ => ⟨S200x10000, .f32⟩
  | .local _ .vmem, ⟨17, _⟩ => ⟨S200x10000, .f32⟩
  | .local _ .vmem, ⟨18, _⟩ => ⟨S10000x64, .bf16⟩
  | .local _ .vmem, ⟨19, _⟩ => ⟨S1x64, .f32⟩
  | .local _ .vmem, ⟨20, _⟩ => ⟨S200x64, .f32⟩
  | .local _ .vmem, ⟨21, _⟩ => ⟨S200x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  shapeCasts_S1000x256_S1000x256 : S1000x256.ShapeCasts S1000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  dot_S1000x512_S512x256_S1000x256_1_0_0_1_n_n_wf : DotDims.WF S1000x512 S512x256 S1000x256 [1] [0] [0] [1] [] []
  dot_S200x10000_S10000x256_S200x256_1_0_0_1_n_n_wf : DotDims.WF S200x10000 S10000x256 S200x256 [1] [0] [0] [1] [] []
  dot_S1000x256_S256x64_S1000x64_1_0_0_1_n_n_wf : DotDims.WF S1000x256 S256x64 S1000x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .bf16 = 32 ∨ (Rect.block (s := S10000x256) S1000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .f32 = 32 ∨ (Rect.block (s := S10000x256) S200x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S10000x64.size a
  hwx2_2 : ∀ i : grid2.Coords, EltTy.bits .bf16 = 32 ∨ (Rect.block (s := S10000x64) S1000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x64.size a ≤ S10000x64.size a
  hwx3_3 : ∀ i : grid3.Coords, EltTy.bits .f32 = 32 ∨ (Rect.block (s := S10000x64) S200x64.size (cc3_transform_3 i) (hinb3_3 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S200x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S10000x256 : Shape := ⟨2, ![10000, 256]⟩
abbrev S1x256 : Shape := ⟨2, ![1, 256]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KRun.lean ====
/-
  The kernel program's run with its result named.

  The program is four regions among three stretches of host operations.  Running the segments in order leaves every
  buffer the cores share at the contents of the last boundary of the fold through the program (`W7`): the result buffer at
  what the fourth region's write-backs leave, and each argument, which nothing writes, at what it was launched with.
-/
import proofs.«104947_j40690520162672_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the six arguments as launched. -/
theorem run : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v7 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.KPay.lean ====
/-
  What each of the four kernel bodies stores, read at the coordinates `(p, q)` of its output block.

  Every body multiplies its row stripe by a whole right operand onto the zero accumulator; the changes of float
  format around the product are the identity on extended reals and a shape cast to the same shape is the identity.
  So the two small products store `entry x w p q`; the two large ones add row `q` of the bias block (one row,
  repeated down the stripe), and the first of them then takes the maximum with the zero word, the extended real `0`.
-/
import proofs.«104947_j40690520162672_1_alg».proof.Proof.Gen.KernelIdeal.Skeleton
import proofs.«104947_j40690520162672_1_alg».proof.Proof.LibMatProd
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx MatProd

/-- The product the body of this shape takes, onto the zero accumulator, entry by entry. -/
theorem dot0_entry (lhs : FVec Ideal S1000x512 .bf16) (rhs : FVec Ideal S512x256 .bf16) (p : Fin 1000) (q : Fin 256) :
    matmul dot_S1000x512_S512x256_S1000x256_1_0_0_1_n_n none lhs rhs (constant (F := Ideal) S1000x256 .f32 0x00000000#32) (ix2 p q)
      = entry lhs rhs p q :=
  matmul_zero_entry dot_S1000x512_S512x256_S1000x256_1_0_0_1_n_n none rfl rfl
    (fun j c => by
      unfold DotDims.lhsIdx
      rw [dif_neg (show ¬(0 : Fin S1000x512.rank) ∈ dot_S1000x512_S512x256_S1000x256_1_0_0_1_n_n.lhsBatch by decide),
        dif_pos (show (0 : Fin S1000x512.rank) ∈ dot_S1000x512_S512x256_S1000x256_1_0_0_1_n_n.lhsNonContracting by decide)]
      rfl)
    (fun j c => dot_S1000x512_S512x256_S1000x256_1_0_0_1_n_n.lhsIdx_val_of_single rfl j c)
    (fun j c => dot_S1000x512_S512x256_S1000x256_1_0_0_1_n_n.rhsIdx_val_of_single rfl j c)
    (fun j c => by
      unfold DotDims.rhsIdx
      rw [dif_neg (show ¬(1 : Fin S512x256.rank) ∈ dot_S1000x512_S512x256_S1000x256_1_0_0_1_n_n.rhsBatch by decide),
        dif_pos (show (1 : Fin S512x256.rank) ∈ dot_S1000x512_S512x256_S1000x256_1_0_0_1_n_n.rhsNonContracting by decide)]
      rfl)
    lhs rhs p q

/-- The product the body of this shape takes, onto the zero accumulator, entry by entry. -/
theorem dot1_entry (lhs : FVec Ideal S200x10000 .bf16) (rhs : FVec Ideal S10000x256 .bf16) (p : Fin 200) (q : Fin 256) :
    matmul dot_S200x10000_S10000x256_S200x256_1_0_0_1_n_n none lhs rhs (constant (F := Ideal) S200x256 .f32 0x00000000#32) (ix2 p q)
      = entry lhs rhs p q :=
  matmul_zero_entry dot_S200x10000_S10000x256_S200x256_1_0_0_1_n_n none rfl rfl
    (fun j c => by
      unfold DotDims.lhsIdx
      rw [dif_neg (show ¬(0 : Fin S200x10000.rank) ∈ dot_S200x10000_S10000x256_S200x256_1_0_0_1_n_n.lhsBatch by decide),
        dif_pos (show (0 : Fin S200x10000.rank) ∈ dot_S200x10000_S10000x256_S200x256_1_0_0_1_n_n.lhsNonContracting by decide)]
      rfl)
    (fun j c => dot_S200x10000_S10000x256_S200x256_1_0_0_1_n_n.lhsIdx_val_of_single rfl j c)
    (fun j c => dot_S200x10000_S10000x256_S200x256_1_0_0_1_n_n.rhsIdx_val_of_single rfl j c)
    (fun j c => by
      unfold DotDims.rhsIdx
      rw [dif_neg (show ¬(1 : Fin S10000x256.rank) ∈ dot_S200x10000_S10000x256_S200x256_1_0_0_1_n_n.rhsBatch by decide),
        dif_pos (show (1 : Fin S10000x256.rank) ∈ dot_S200x10000_S10000x256_S200x256_1_0_0_1_n_n.rhsNonContracting by decide)]
      rfl)
    lhs rhs p q

/-- The product the body of this shape takes, onto the zero accumulator, entry by entry. -/
theorem dot2_entry (lhs : FVec Ideal S1000x256 .bf16) (rhs : FVec Ideal S256x64 .bf16) (p : Fin 1000) (q : Fin 64) :
    matmul dot_S1000x256_S256x64_S1000x64_1_0_0_1_n_n none lhs rhs (constant (F := Ideal) S1000x64 .f32 0x00000000#32) (ix2 p q)
      = entry lhs rhs p q :=
  matmul_zero_entry dot_S1000x256_S256x64_S1000x64_1_0_0_1_n_n none rfl rfl
    (fun j c => by
      unfold DotDims.lhsIdx
      rw [dif_neg (show ¬(0 : Fin S1000x256.rank) ∈ dot_S1000x256_S256x64_S1000x64_1_0_0_1_n_n.lhsBatch by decide),
        dif_pos (show (0 : Fin S1000x256.rank) ∈ dot_S1000x256_S256x64_S1000x64_1_0_0_1_n_n.lhsNonContracting by decide)]
      rfl)
    (fun j c => dot_S1000x256_S256x64_S1000x64_1_0_0_1_n_n.lhsIdx_val_of_single rfl j c)
    (fun j c => dot_S1000x256_S256x64_S1000x64_1_0_0_1_n_n.rhsIdx_val_of_single rfl j c)
    (fun j c => by
      unfold DotDims.rhsIdx
      rw [dif_neg (show ¬(1 : Fin S256x64.rank) ∈ dot_S1000x256_S256x64_S1000x64_1_0_0_1_n_n.rhsBatch by decide),
        dif_pos (show (1 : Fin S256x64.rank) ∈ dot_S1000x256_S256x64_S1000x64_1_0_0_1_n_n.rhsNonContracting by decide)]
      rfl)
    lhs rhs p q

/-- The product the body of this shape takes, onto the zero accumulator, entry by entry. -/
theorem dot3_entry (lhs : FVec Ideal S200x10000 .bf16) (rhs : FVec Ideal S10000x64 .bf16) (p : Fin 200) (q : Fin 64) :
    matmul dot_S200x10000_S10000x64_S200x64_1_0_0_1_n_n none lhs rhs (constant (F := Ideal) S200x64 .f32 0x00000000#32) (ix2 p q)
      = entry lhs rhs p q :=
  matmul_zero_entry dot_S200x10000_S10000x64_S200x64_1_0_0_1_n_n none rfl rfl
    (fun j c => by
      unfold DotDims.lhsIdx
      rw [dif_neg (show ¬(0 : Fin S200x10000.rank) ∈ dot_S200x10000_S10000x64_S200x64_1_0_0_1_n_n.lhsBatch by decide),
        dif_pos (show (0 : Fin S200x10000.rank) ∈ dot_S200x10000_S10000x64_S200x64_1_0_0_1_n_n.lhsNonContracting by decide)]
      rfl)
    (fun j c => dot_S200x10000_S10000x64_S200x64_1_0_0_1_n_n.lhsIdx_val_of_single rfl j c)
    (fun j c => dot_S200x10000_S10000x64_S200x64_1_0_0_1_n_n.rhsIdx_val_of_single rfl j c)
    (fun j c => by
      unfold DotDims.rhsIdx
      rw [dif_neg (show ¬(1 : Fin S10000x64.rank) ∈ dot_S200x10000_S10000x64_S200x64_1_0_0_1_n_n.rhsBatch by decide),
        dif_pos (show (1 : Fin S10000x64.rank) ∈ dot_S200x10000_S10000x64_S200x64_1_0_0_1_n_n.rhsNonContracting by decide)]
      rfl)
    lhs rhs p q

/-- The first body stores `x · w` of its blocks. -/
theorem pay0_apply (x0 : Vec Ideal S1000x512 .f32) (x1 : Vec Ideal S512x256 .bf16) (p : Fin 1000) (q : Fin 256) :
    k0_pay1 x0 x1 (ix2 p q) = entry x0 x1 p q := by
  unfold k0_pay1
  rw [shapeCast_self]
  exact dot0_entry (truncf .bf16 x0 bitsLt_bf16_f32) x1 p q

/-- The third body stores `h · w` of its blocks. -/
theorem pay2_apply (x0 : Vec Ideal S1000x256 .f32) (x1 : Vec Ideal S256x64 .bf16) (p : Fin 1000) (q : Fin 64) :
    k2_pay1 x0 x1 (ix2 p q) = entry x0 x1 p q := by
  unfold k2_pay1
  rw [shapeCast_self, shapeCast_self]
  exact dot2_entry (truncf .bf16 x0 bitsLt_bf16_f32) x1 p q

/-- The second body stores `max (a · r + bias, 0)` of its blocks. -/
theorem pay1_apply (x0 : Vec Ideal S200x10000 .f32) (x1 : Vec Ideal S10000x256 .bf16) (x2 : Vec Ideal S1x256 .f32)
    (p : Fin 200) (q : Fin 256) :
    k1_pay1 x0 x1 x2 (ix2 p q) = max (entry x0 x1 p q + x2 (ix2 (0 : Fin 1) q)) 0 := by
  unfold k1_pay1
  rw [shapeCast_self, shapeCast_self]
  show max (matmul dot_S200x10000_S10000x256_S200x256_1_0_0_1_n_n none (truncf .bf16 x0 bitsLt_bf16_f32) x1
        (constant (F := Ideal) S200x256 .f32 0x00000000#32) (ix2 p q)
      + broadcastTo S200x256 x2 broadcasts_S1x256_S200x256 (ix2 p q)) (Ideal.ofBits .f32 0x00000000#32) = _
  rw [dot1_entry, broadcastTo_1b_ab_apply, Ideal.ofBits_zero_f32]
  rfl

/-- The fourth body stores `a · r + bias` of its blocks. -/
theorem pay3_apply (x0 : Vec Ideal S200x10000 .f32) (x1 : Vec Ideal S10000x64 .bf16) (x2 : Vec Ideal S1x64 .f32)
    (p : Fin 200) (q : Fin 64) :
    k3_pay1 x0 x1 x2 (ix2 p q) = entry x0 x1 p q + x2 (ix2 (0 : Fin 1) q) := by
  unfold k3_pay1
  rw [shapeCast_self, shapeCast_self]
  show matmul dot_S200x10000_S10000x64_S200x64_1_0_0_1_n_n none (truncf .bf16 x0 bitsLt_bf16_f32) x1
        (constant (F := Ideal) S200x64 .f32 0x00000000#32) (ix2 p q)
      + broadcastTo S200x64 x2 broadcasts_S1x64_S200x64 (ix2 p q) = _
  rw [dot3_entry, broadcastTo_1b_ab_apply]
  rfl

end Cert.KernelIdeal.Pay

end
-- ==== Proof.KRegion0.lean ====
/-
  Region 0: the array it leaves is `x · w` of the two arrays it reads.

  The grid has ten points; point `t` reads rows `1000 t … 1000 t + 999` of the left array and the whole right array,
  and writes back rows `1000 t … 1000 t + 999` of the result.  The block a point writes back is therefore the same
  rows of the whole-array product, and the ten blocks cover every row, so the array ends holding the product.
-/
import proofs.«104947_j40690520162672_1_alg».proof.Proof.Gen.KernelIdeal.Frame
import proofs.«104947_j40690520162672_1_alg».proof.Proof.KPay

set_option maxRecDepth 16384

noncomputable section

namespace Cert.KernelIdeal.Region0

open Cert.KernelIdeal Cert.KernelIdeal.Gen Cert.KernelIdeal.Pay Idealize.ShloMosaic Idealize.ShloMosaic.TcCoe
open Idealize.ShloMosaic.ValueIdx MatProd Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the stripe windows sit at block row `t`, the whole-array window at (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arithmetic of one point, over plain variables: if the left block is rows `1000 r …` of `A` and the right
    block is `B`, the stored payload at `(p, q)` is the product `A · B` at `(1000 r + p, q)`. -/
theorem point (A : S10000x512.Idx → EReal) (B : S512x256.Idx → EReal) (x0 : Vec Ideal S1000x512 .f32) (x1 : Vec Ideal S512x256 .bf16)
    (r : ℕ) (p : Fin 1000) (q : Fin 256) (hrow : r * 1000 + p.val < 10000)
    (h0 : ∀ l : Fin 512, x0 (ix2 p l) = A (ix2 ⟨r * 1000 + p.val, hrow⟩ l))
    (h1 : ∀ l : Fin 512, x1 (ix2 l q) = B (ix2 l q)) :
    k0_pay1 x0 x1 (ix2 p q) = mm A B (ix2 ⟨r * 1000 + p.val, hrow⟩ q) := by
  rw [pay0_apply, mm_ix2]
  unfold entry
  exact Finset.sum_congr rfl fun l _ => by rw [h0 l, h1 l]

/-- WHAT POINT `t` WRITES BACK is block `t` of the product of the two arrays as the region finds them. -/
theorem flushed (c : Dev nD) (t : Fin cfg0.N) :
    (dat0 V c).flushed 2 t = ((cfg0.win 2).blk t).view.read (Elt Ideal) (mm (V c main_arg0) (V c main_v0)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x256) hz]
  obtain ⟨e00, e01, e10, e11, e20, e21⟩ := idx t
  have ht : t.val < 10 := t.isLt
  funext j
  obtain ⟨p, q, rfl⟩ : ∃ (p : Fin 1000) (q : Fin 256), j = ix2 p q := ⟨j 0, j 1, eq_ix2 j⟩
  have hrow : t.val * 1000 + p.val < 10000 := by have := p.isLt; omega
  have hemb : ((cfg0.win 2).blk t).view.emb (ix2 p q) = ix2 ⟨t.val * 1000 + p.val, hrow⟩ q := by
    funext a; apply Fin.ext
    match a with
    | ⟨0, _⟩ => show win0_2.index t 0 * 1000 + 1 * p.val = t.val * 1000 + p.val; rw [e20]; omega
    | ⟨1, _⟩ => show win0_2.index t 1 * 256 + 1 * q.val = q.val; rw [e21]; omega
  show k0_pay1 (iblk0 V c 0 t) (iblk0 V c 1 t) (ix2 p q)
    = mm (V c main_arg0) (V c main_v0) (((cfg0.win 2).blk t).view.emb (ix2 p q))
  rw [hemb]
  refine point (V c main_arg0) (V c main_v0) (iblk0 V c 0 t) (iblk0 V c 1 t) t.val p q hrow (fun l => ?_) (fun l => ?_)
  · show V c main_arg0 (((cfg0.win 0).blk t).view.emb (ix2 p l)) = _
    refine congrArg (V c main_arg0) ?_
    funext a; apply Fin.ext
    match a with
    | ⟨0, _⟩ => show win0_0.index t 0 * 1000 + 1 * p.val = t.val * 1000 + p.val; rw [e00]; omega
    | ⟨1, _⟩ => show win0_0.index t 1 * 512 + 1 * l.val = l.val; rw [e01]; omega
  · show V c main_v0 (((cfg0.win 1).blk t).view.emb (ix2 l q)) = _
    refine congrArg (V c main_v0) ?_
    funext a; apply Fin.ext
    match a with
    | ⟨0, _⟩ => show win0_1.index t 0 * 512 + 1 * l.val = l.val; rw [e10]; omega
    | ⟨1, _⟩ => show win0_1.index t 1 * 256 + 1 * q.val = q.val; rw [e11]; omega

/-- An index of the result array is in point `t`'s block iff each coordinate is in the block's range on its axis. -/
theorem mem_blk (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v2).slice (win0_2.rect t)).set ↔ _
  rw [View.set_slice_whole, Rect.mem_set_unit]
  exact Iff.rfl

/-- Row `r` of the result is written back by point `r / 1000`: the ten blocks cover the array. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 10 := N_0
  have hlt : (i 0).val / 1000 < cfg0.N := by rw [hN]; omega
  obtain ⟨-, -, -, -, e20, e21⟩ := idx ⟨(i 0).val / 1000, hlt⟩
  refine ⟨⟨(i 0).val / 1000, hlt⟩, flush0_2 _, ?_⟩
  rw [mem_blk]
  intro a
  match a with
  | ⟨0, _⟩ =>
    show win0_2.index ⟨(i 0).val / 1000, hlt⟩ 0 * 1000 ≤ (i 0).val
      ∧ (i 0).val < win0_2.index ⟨(i 0).val / 1000, hlt⟩ 0 * 1000 + 1000
    rw [e20]
    show (i 0).val / 1000 * 1000 ≤ (i 0).val ∧ (i 0).val < (i 0).val / 1000 * 1000 + 1000
    omega
  | ⟨1, _⟩ =>
    show win0_2.index ⟨(i 0).val / 1000, hlt⟩ 1 * 256 ≤ (i 1).val
      ∧ (i 1).val < win0_2.index ⟨(i 0).val / 1000, hlt⟩ 1 * 256 + 256
    rw [e21]
    omega

/-- THE ARRAY the region leaves: the product of the two arrays it reads, as it finds them. -/
theorem array (c : Dev nD) : (dat0 V c).arrAt 2 cfg0.N = mm (V c main_arg0) (V c main_v0) :=
  (dat0 V c).arrAt_eq_of_cover 2 (mm (V c main_arg0) (V c main_v0)) (fun t _ => flushed V c t) cover

end Cert.KernelIdeal.Region0

end
-- ==== Proof.KRegion1.lean ====
/-
  Region 1: the array it leaves is `max (a · r + bias, 0)` of the three arrays it reads.

  The grid has fifty points; point `t` reads rows `200 t … 200 t + 199` of the square array, the whole right array
  and the one-row bias array, and writes back rows `200 t … 200 t + 199` of the result.  The block a point writes
  back is therefore the same rows of one whole-array function of the three arrays, and the fifty blocks cover every
  row, so the array ends holding that function.
-/
import proofs.«104947_j40690520162672_1_alg».proof.Proof.Gen.KernelIdeal.Frame
import proofs.«104947_j40690520162672_1_alg».proof.Proof.KPay

set_option maxRecDepth 16384

noncomputable section

namespace Cert.KernelIdeal.Region1

open Cert.KernelIdeal Cert.KernelIdeal.Gen Cert.KernelIdeal.Pay Idealize.ShloMosaic Idealize.ShloMosaic.TcCoe
open Idealize.ShloMosaic.ValueIdx MatProd Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region leaves: the product plus the bias row on every row, then the maximum with `0`. -/
def res (A : S10000x10000.Idx → EReal) (B : S10000x256.Idx → EReal) (C : S1x256.Idx → EReal) : S10000x256.Idx → EReal :=
  fun i => max (mm A B i + C (ix2 (0 : Fin 1) ⟨(i 1).val, idx2_lt1 i⟩)) 0

/-- The printed index maps over the grid: the stripe windows sit at block row `t`, the whole-array windows at (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The arithmetic of one point, over plain variables: if the left block is rows `200 r …` of `A`, the right block is
    `B` and the bias block is `C`, the stored payload at `(p, q)` is `res A B C` at `(200 r + p, q)`. -/
theorem point (A : S10000x10000.Idx → EReal) (B : S10000x256.Idx → EReal) (C : S1x256.Idx → EReal)
    (x0 : Vec Ideal S200x10000 .f32) (x1 : Vec Ideal S10000x256 .bf16) (x2 : Vec Ideal S1x256 .f32)
    (r : ℕ) (p : Fin 200) (q : Fin 256) (hrow : r * 200 + p.val < 10000)
    (h0 : ∀ l : Fin 10000, x0 (ix2 p l) = A (ix2 ⟨r * 200 + p.val, hrow⟩ l))
    (h1 : ∀ l : Fin 10000, x1 (ix2 l q) = B (ix2 l q))
    (h2 : x2 (ix2 (0 : Fin 1) q) = C (ix2 (0 : Fin 1) q)) :
    k1_pay1 x0 x1 x2 (ix2 p q) = res A B C (ix2 ⟨r * 200 + p.val, hrow⟩ q) := by
  rw [pay1_apply, h2]
  show _ = max (mm A B (ix2 ⟨r * 200 + p.val, hrow⟩ q) + C (ix2 (0 : Fin 1) q)) 0
  rw [mm_ix2]
  refine congrArg (fun z : EReal => max (z + C (ix2 (0 : Fin 1) q)) 0) ?_
  unfold entry
  exact Finset.sum_congr rfl fun l _ => by rw [h0 l, h1 l]

/-- WHAT POINT `t` WRITES BACK is block `t` of `res` of the three arrays as the region finds them. -/
theorem flushed (c : Dev nD) (t : Fin cfg1.N) :
    (dat1 V c).flushed 3 t = ((cfg1.win 3).blk t).view.read (Elt Ideal) (res (V c main_arg1) (V c main_v2) (V c main_v3)) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x256) hz, View.ld_unit_zero (S := S1x256) hz]
  obtain ⟨e00, e01, e10, e11, e20, e21, e30, e31⟩ := idx t
  have ht : t.val < 50 := t.isLt
  funext j
  obtain ⟨p, q, rfl⟩ : ∃ (p : Fin 200) (q : Fin 256), j = ix2 p q := ⟨j 0, j 1, eq_ix2 j⟩
  have hrow : t.val * 200 + p.val < 10000 := by have := p.isLt; omega
  have hemb : ((cfg1.win 3).blk t).view.emb (ix2 p q) = ix2 ⟨t.val * 200 + p.val, hrow⟩ q := by
    funext a; apply Fin.ext
    match a with
    | ⟨0, _⟩ => show win1_3.index t 0 * 200 + 1 * p.val = t.val * 200 + p.val; rw [e30]; omega
    | ⟨1, _⟩ => show win1_3.index t 1 * 256 + 1 * q.val = q.val; rw [e31]; omega
  show k1_pay1 (iblk1 V c 0 t) (iblk1 V c 1 t) (iblk1 V c 2 t) (ix2 p q)
    = res (V c main_arg1) (V c main_v2) (V c main_v3) (((cfg1.win 3).blk t).view.emb (ix2 p q))
  rw [hemb]
  refine point (V c main_arg1) (V c main_v2) (V c main_v3) (iblk1 V c 0 t) (iblk1 V c 1 t) (iblk1 V c 2 t)
    t.val p q hrow (fun l => ?_) (fun l => ?_) ?_
  · show V c main_arg1 (((cfg1.win 0).blk t).view.emb (ix2 p l)) = _
    refine congrArg (V c main_arg1) ?_
    funext a; apply Fin.ext
    match a with
    | ⟨0, _⟩ => show win1_0.index t 0 * 200 + 1 * p.val = t.val * 200 + p.val; rw [e00]; omega
    | ⟨1, _⟩ => show win1_0.index t 1 * 10000 + 1 * l.val = l.val; rw [e01]; omega
  · show V c main_v2 (((cfg1.win 1).blk t).view.emb (ix2 l q)) = _
    refine congrArg (V c main_v2) ?_
    funext a; apply Fin.ext
    match a with
    | ⟨0, _⟩ => show win1_1.index t 0 * 10000 + 1 * l.val = l.val; rw [e10]; omega
    | ⟨1, _⟩ => show win1_1.index t 1 * 256 + 1 * q.val = q.val; rw [e11]; omega
  · show V c main_v3 (((cfg1.win 2).blk t).view.emb (ix2 (0 : Fin 1) q)) = _
    refine congrArg (V c main_v3) ?_
    funext a; apply Fin.ext
    match a with
    | ⟨0, _⟩ => show win1_2.index t 0 * 1 + 1 * 0 = 0; rw [e20]
    | ⟨1, _⟩ => show win1_2.index t 1 * 256 + 1 * q.val = q.val; rw [e21]; omega

/-- An index of the result array is in point `t`'s block iff each coordinate is in the block's range on its axis. -/
theorem mem_blk (t : Fin cfg1.N) (i : S10000x256.Idx) :
    i ∈ ((cfg1.win 3).blk t).view.set ↔ ∀ a : Fin 2, win1_3.index t a * S200x256.size a ≤ (i a).val
      ∧ (i a).val < win1_3.index t a * S200x256.size a + S200x256.size a := by
  show i ∈ ((View.whole main_v4).slice (win1_3.rect t)).set ↔ _
  rw [View.set_slice_whole, Rect.mem_set_unit]
  exact Iff.rfl

/-- Row `r` of the result is written back by point `r / 200`: the fifty blocks cover the array. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 50 := N_1
  have hlt : (i 0).val / 200 < cfg1.N := by rw [hN]; omega
  obtain ⟨-, -, -, -, -, -, e30, e31⟩ := idx ⟨(i 0).val / 200, hlt⟩
  refine ⟨⟨(i 0).val / 200, hlt⟩, flush1_3 _, ?_⟩
  rw [mem_blk]
  intro a
  match a with
  | ⟨0, _⟩ =>
    show win1_3.index ⟨(i 0).val / 200, hlt⟩ 0 * 200 ≤ (i 0).val
      ∧ (i 0).val < win1_3.index ⟨(i 0).val / 200, hlt⟩ 0 * 200 + 200
    rw [e30]
    show (i 0).val / 200 * 200 ≤ (i 0).val ∧ (i 0).val < (i 0).val / 200 * 200 + 200
    omega
  | ⟨1, _⟩ =>
    show win1_3.index ⟨(i 0).val / 200, hlt⟩ 1 * 256 ≤ (i 1).val
      ∧ (i 1).val < win1_3.index ⟨(i 0).val / 200, hlt⟩ 1 * 256 + 256
    rw [e31]
    omega

/-- THE ARRAY the region leaves: `res` of the three arrays it reads, as it finds them. -/
theorem array (c : Dev nD) : (dat1 V c).arrAt 3 cfg1.N = res (V c main_arg1) (V c main_v2) (V c main_v3) :=
  (dat1 V c).arrAt_eq_of_cover 3 (res (V c main_arg1) (V c main_v2) (V c main_v3)) (fun t _ => flushed V c t) cover

end Cert.KernelIdeal.Region1

end
-- ==== Proof.KRegion2.lean ====
/-
  Region 2: the array it leaves is `h · w` of the two arrays it reads.

  The grid has ten points; point `t` reads rows `1000 t … 1000 t + 999` of the left array and the whole right array,
  and writes back rows `1000 t … 1000 t + 999` of the result.  The block a point writes back is therefore the same
  rows of the whole-array product, and the ten blocks cover every row, so the array ends holding the product.
-/
import proofs.«104947_j40690520162672_1_alg».proof.Proof.Gen.KernelIdeal.Frame
import proofs.«104947_j40690520162672_1_alg».proof.Proof.KPay

set_option maxRecDepth 16384

noncomputable section

namespace Cert.KernelIdeal.Region2

open Cert.KernelIdeal Cert.KernelIdeal.Gen Cert.KernelIdeal.Pay Idealize.ShloMosaic Idealize.ShloMosaic.TcCoe
open Idealize.ShloMosaic.ValueIdx MatProd Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the stripe windows sit at block row `t`, the whole-array window at (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The arithmetic of one point, over plain variables: if the left block is rows `1000 r …` of `A` and the right
    block is `B`, the stored payload at `(p, q)` is the product `A · B` at `(1000 r + p, q)`. -/
theorem point (A : S10000x256.Idx → EReal) (B : S256x64.Idx → EReal) (x0 : Vec Ideal S1000x256 .f32) (x1 : Vec Ideal S256x64 .bf16)
    (r : ℕ) (p : Fin 1000) (q : Fin 64) (hrow : r * 1000 + p.val < 10000)
    (h0 : ∀ l : Fin 256, x0 (ix2 p l) = A (ix2 ⟨r * 1000 + p.val, hrow⟩ l))
    (h1 : ∀ l : Fin 256, x1 (ix2 l q) = B (ix2 l q)) :
    k2_pay1 x0 x1 (ix2 p q) = mm A B (ix2 ⟨r * 1000 + p.val, hrow⟩ q) := by
  rw [pay2_apply, mm_ix2]
  unfold entry
  exact Finset.sum_congr rfl fun l _ => by rw [h0 l, h1 l]

/-- WHAT POINT `t` WRITES BACK is block `t` of the product of the two arrays as the region finds them. -/
theorem flushed (c : Dev nD) (t : Fin cfg2.N) :
    (dat2 V c).flushed 2 t = ((cfg2.win 2).blk t).view.read (Elt Ideal) (mm (V c main_v4) (V c main_v1)) := by
  show (cfg2.win 2).cut (grid2.coords t) ((dat2 V c).after 2 t) = _
  rw [after2_2]
  unfold out2_2
  rw [View.canon_unit_zero hz]
  simp only [View.ld_unit_zero (S := S1000x256) hz, View.ld_unit_zero (S := S256x64) hz]
  obtain ⟨e00, e01, e10, e11, e20, e21⟩ := idx t
  have ht : t.val < 10 := t.isLt
  funext j
  obtain ⟨p, q, rfl⟩ : ∃ (p : Fin 1000) (q : Fin 64), j = ix2 p q := ⟨j 0, j 1, eq_ix2 j⟩
  have hrow : t.val * 1000 + p.val < 10000 := by have := p.isLt; omega
  have hemb : ((cfg2.win 2).blk t).view.emb (ix2 p q) = ix2 ⟨t.val * 1000 + p.val, hrow⟩ q := by
    funext a; apply Fin.ext
    match a with
    | ⟨0, _⟩ => show win2_2.index t 0 * 1000 + 1 * p.val = t.val * 1000 + p.val; rw [e20]; omega
    | ⟨1, _⟩ => show win2_2.index t 1 * 64 + 1 * q.val = q.val; rw [e21]; omega
  show k2_pay1 (iblk2 V c 0 t) (iblk2 V c 1 t) (ix2 p q)
    = mm (V c main_v4) (V c main_v1) (((cfg2.win 2).blk t).view.emb (ix2 p q))
  rw [hemb]
  refine point (V c main_v4) (V c main_v1) (iblk2 V c 0 t) (iblk2 V c 1 t) t.val p q hrow (fun l => ?_) (fun l => ?_)
  · show V c main_v4 (((cfg2.win 0).blk t).view.emb (ix2 p l)) = _
    refine congrArg (V c main_v4) ?_
    funext a; apply Fin.ext
    match a with
    | ⟨0, _⟩ => show win2_0.index t 0 * 1000 + 1 * p.val = t.val * 1000 + p.val; rw [e00]; omega
    | ⟨1, _⟩ => show win2_0.index t 1 * 256 + 1 * l.val = l.val; rw [e01]; omega
  · show V c main_v1 (((cfg2.win 1).blk t).view.emb (ix2 l q)) = _
    refine congrArg (V c main_v1) ?_
    funext a; apply Fin.ext
    match a with
    | ⟨0, _⟩ => show win2_1.index t 0 * 256 + 1 * l.val = l.val; rw [e10]; omega
    | ⟨1, _⟩ => show win2_1.index t 1 * 64 + 1 * q.val = q.val; rw [e11]; omega

/-- An index of the result array is in point `t`'s block iff each coordinate is in the block's range on its axis. -/
theorem mem_blk (t : Fin cfg2.N) (i : S10000x64.Idx) :
    i ∈ ((cfg2.win 2).blk t).view.set ↔ ∀ a : Fin 2, win2_2.index t a * S1000x64.size a ≤ (i a).val
      ∧ (i a).val < win2_2.index t a * S1000x64.size a + S1000x64.size a := by
  show i ∈ ((View.whole main_v5).slice (win2_2.rect t)).set ↔ _
  rw [View.set_slice_whole, Rect.mem_set_unit]
  exact Iff.rfl

/-- Row `r` of the result is written back by point `r / 1000`: the ten blocks cover the array. -/
theorem cover (i : S10000x64.Idx) :
    ∃ t : Fin cfg2.N, (cfg2.win 2).flush t = true ∧ i ∈ ((cfg2.win 2).blk t).view.set := by
  have hi0 : (i 0).val < 10000 := (i 0).isLt
  have hi1 : (i 1).val < 64 := (i 1).isLt
  have hN : cfg2.N = 10 := N_2
  have hlt : (i 0).val / 1000 < cfg2.N := by rw [hN]; omega
  obtain ⟨-, -, -, -, e20, e21⟩ := idx ⟨(i 0).val / 1000, hlt⟩
  refine ⟨⟨(i 0).val / 1000, hlt⟩, flush2_2 _, ?_⟩
  rw [mem_blk]
  intro a
  match a with
  | ⟨0, _⟩ =>
    show win2_2.index ⟨(i 0).val / 1000, hlt⟩ 0 * 1000 ≤ (i 0).val
      ∧ (i 0).val < win2_2.index ⟨(i 0).val / 1000, hlt⟩ 0 * 1000 + 1000
    rw [e20]
    show (i 0).val / 1000 * 1000 ≤ (i 0).val ∧ (i 0).val < (i 0).val / 1000 * 1000 + 1000
    omega
  | ⟨1, _⟩ =>
    show win2_2.index ⟨(i 0).val / 1000, hlt⟩ 1 * 64 ≤ (i 1).val
      ∧ (i 1).val < win2_2.index ⟨(i 0).val / 1000, hlt⟩ 1 * 64 + 64
    rw [e21]
    omega

/-- THE ARRAY the region leaves: the product of the two arrays it reads, as it finds them. -/
theorem array (c : Dev nD) : (dat2 V c).arrAt 2 cfg2.N = mm (V c main_v4) (V c main_v1) :=
  (dat2 V c).arrAt_eq_of_cover 2 (mm (V c main_v4) (V c main_v1)) (fun t _ => flushed V c t) cover

end Cert.KernelIdeal.Region2

end
-- ==== Proof.KRegion3.lean ====
/-
  Region 3: the array it leaves is `a · r + bias` of the three arrays it reads.

  The grid has fifty points; point `t` reads rows `200 t … 200 t + 199` of the square array, the whole right array
  and the one-row bias array, and writes back rows `200 t … 200 t + 199` of the result.  The block a point writes
  back is therefore the same rows of one whole-array function of the three arrays, and the fifty blocks cover every
  row, so the array ends holding that function.
-/
import proofs.«104947_j40690520162672_1_alg».proof.Proof.Gen.KernelIdeal.Frame
import proofs.«104947_j40690520162672_1_alg».proof.Proof.KPay

set_option maxRecDepth 16384

noncomputable section

namespace Cert.KernelIdeal.Region3

open Cert.KernelIdeal Cert.KernelIdeal.Gen Cert.KernelIdeal.Pay Idealize.ShloMosaic Idealize.ShloMosaic.TcCoe
open Idealize.ShloMosaic.ValueIdx MatProd Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region leaves: the product plus the bias row on every row. -/
def res (A : S10000x10000.Idx → EReal) (B : S10000x64.Idx → EReal) (C : S1x64.Idx → EReal) : S10000x64.Idx → EReal :=
  fun i => mm A B i + C (ix2 (0 : Fin 1) ⟨(i 1).val, idx2_lt1 i⟩)

/-- The printed index maps over the grid: the stripe windows sit at block row `t`, the whole-array windows at (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The arithmetic of one point, over plain variables: if the left block is rows `200 r …` of `A`, the right block is
    `B` and the bias block is `C`, the stored payload at `(p, q)` is `res A B C` at `(200 r + p, q)`. -/
theorem point (A : S10000x10000.Idx → EReal) (B : S10000x64.Idx → EReal) (C : S1x64.Idx → EReal)
    (x0 : Vec Ideal S200x10000 .f32) (x1 : Vec Ideal S10000x64 .bf16) (x2 : Vec Ideal S1x64 .f32)
    (r : ℕ) (p : Fin 200) (q : Fin 64) (hrow : r * 200 + p.val < 10000)
    (h0 : ∀ l : Fin 10000, x0 (ix2 p l) = A (ix2 ⟨r * 200 + p.val, hrow⟩ l))
    (h1 : ∀ l : Fin 10000, x1 (ix2 l q) = B (ix2 l q))
    (h2 : x2 (ix2 (0 : Fin 1) q) = C (ix2 (0 : Fin 1) q)) :
    k3_pay1 x0 x1 x2 (ix2 p q) = res A B C (ix2 ⟨r * 200 + p.val, hrow⟩ q) := by
  rw [pay3_apply, h2]
  show _ = mm A B (ix2 ⟨r * 200 + p.val, hrow⟩ q) + C (ix2 (0 : Fin 1) q)
  rw [mm_ix2]
  refine congrArg (fun z : EReal => z + C (ix2 (0 : Fin 1) q)) ?_
  unfold entry
  exact Finset.sum_congr rfl fun l _ => by rw [h0 l, h1 l]

/-- WHAT POINT `t` WRITES BACK is block `t` of `res` of the three arrays as the region finds them. -/
theorem flushed (c : Dev nD) (t : Fin cfg3.N) :
    (dat3 V c).flushed 3 t = ((cfg3.win 3).blk t).view.read (Elt Ideal) (res (V c main_arg1) (V c main_v5) (V c main_v6)) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x64) hz, View.ld_unit_zero (S := S1x64) hz]
  obtain ⟨e00, e01, e10, e11, e20, e21, e30, e31⟩ := idx t
  have ht : t.val < 50 := t.isLt
  funext j
  obtain ⟨p, q, rfl⟩ : ∃ (p : Fin 200) (q : Fin 64), j = ix2 p q := ⟨j 0, j 1, eq_ix2 j⟩
  have hrow : t.val * 200 + p.val < 10000 := by have := p.isLt; omega
  have hemb : ((cfg3.win 3).blk t).view.emb (ix2 p q) = ix2 ⟨t.val * 200 + p.val, hrow⟩ q := by
    funext a; apply Fin.ext
    match a with
    | ⟨0, _⟩ => show win3_3.index t 0 * 200 + 1 * p.val = t.val * 200 + p.val; rw [e30]; omega
    | ⟨1, _⟩ => show win3_3.index t 1 * 64 + 1 * q.val = q.val; rw [e31]; omega
  show k3_pay1 (iblk3 V c 0 t) (iblk3 V c 1 t) (iblk3 V c 2 t) (ix2 p q)
    = res (V c main_arg1) (V c main_v5) (V c main_v6) (((cfg3.win 3).blk t).view.emb (ix2 p q))
  rw [hemb]
  refine point (V c main_arg1) (V c main_v5) (V c main_v6) (iblk3 V c 0 t) (iblk3 V c 1 t) (iblk3 V c 2 t)
    t.val p q hrow (fun l => ?_) (fun l => ?_) ?_
  · show V c main_arg1 (((cfg3.win 0).blk t).view.emb (ix2 p l)) = _
    refine congrArg (V c main_arg1) ?_
    funext a; apply Fin.ext
    match a with
    | ⟨0, _⟩ => show win3_0.index t 0 * 200 + 1 * p.val = t.val * 200 + p.val; rw [e00]; omega
    | ⟨1, _⟩ => show win3_0.index t 1 * 10000 + 1 * l.val = l.val; rw [e01]; omega
  · show V c main_v5 (((cfg3.win 1).blk t).view.emb (ix2 l q)) = _
    refine congrArg (V c main_v5) ?_
    funext a; apply Fin.ext
    match a with
    | ⟨0, _⟩ => show win3_1.index t 0 * 10000 + 1 * l.val = l.val; rw [e10]; omega
    | ⟨1, _⟩ => show win3_1.index t 1 * 64 + 1 * q.val = q.val; rw [e11]; omega
  · show V c main_v6 (((cfg3.win 2).blk t).view.emb (ix2 (0 : Fin 1) q)) = _
    refine congrArg (V c main_v6) ?_
    funext a; apply Fin.ext
    match a with
    | ⟨0, _⟩ => show win3_2.index t 0 * 1 + 1 * 0 = 0; rw [e20]
    | ⟨1, _⟩ => show win3_2.index t 1 * 64 + 1 * q.val = q.val; rw [e21]; omega

/-- An index of the result array is in point `t`'s block iff each coordinate is in the block's range on its axis. -/
theorem mem_blk (t : Fin cfg3.N) (i : S10000x64.Idx) :
    i ∈ ((cfg3.win 3).blk t).view.set ↔ ∀ a : Fin 2, win3_3.index t a * S200x64.size a ≤ (i a).val
      ∧ (i a).val < win3_3.index t a * S200x64.size a + S200x64.size a := by
  show i ∈ ((View.whole main_v7).slice (win3_3.rect t)).set ↔ _
  rw [View.set_slice_whole, Rect.mem_set_unit]
  exact Iff.rfl

/-- Row `r` of the result is written back by point `r / 200`: the fifty blocks cover the array. -/
theorem cover (i : S10000x64.Idx) :
    ∃ t : Fin cfg3.N, (cfg3.win 3).flush t = true ∧ i ∈ ((cfg3.win 3).blk t).view.set := by
  have hi0 : (i 0).val < 10000 := (i 0).isLt
  have hi1 : (i 1).val < 64 := (i 1).isLt
  have hN : cfg3.N = 50 := N_3
  have hlt : (i 0).val / 200 < cfg3.N := by rw [hN]; omega
  obtain ⟨-, -, -, -, -, -, e30, e31⟩ := idx ⟨(i 0).val / 200, hlt⟩
  refine ⟨⟨(i 0).val / 200, hlt⟩, flush3_3 _, ?_⟩
  rw [mem_blk]
  intro a
  match a with
  | ⟨0, _⟩ =>
    show win3_3.index ⟨(i 0).val / 200, hlt⟩ 0 * 200 ≤ (i 0).val
      ∧ (i 0).val < win3_3.index ⟨(i 0).val / 200, hlt⟩ 0 * 200 + 200
    rw [e30]
    show (i 0).val / 200 * 200 ≤ (i 0).val ∧ (i 0).val < (i 0).val / 200 * 200 + 200
    omega
  | ⟨1, _⟩ =>
    show win3_3.index ⟨(i 0).val / 200, hlt⟩ 1 * 64 ≤ (i 1).val
      ∧ (i 1).val < win3_3.index ⟨(i 0).val / 200, hlt⟩ 1 * 64 + 64
    rw [e31]
    omega

/-- THE ARRAY the region leaves: `res` of the three arrays it reads, as it finds them. -/
theorem array (c : Dev nD) : (dat3 V c).arrAt 3 cfg3.N = res (V c main_arg1) (V c main_v5) (V c main_v6) :=
  (dat3 V c).arrAt_eq_of_cover 3 (res (V c main_arg1) (V c main_v5) (V c main_v6)) (fun t _ => flushed V c t) cover

end Cert.KernelIdeal.Region3

end
-- ==== Proof.Spec.lean ====
/-
  What both programs compute, as whole-array functions of the six argument arrays over the extended reals.

  With `x : 10000 × 512`, `adj : 10000 × 10000`, `w1 : 512 × 256`, `b1 : 256`, `w2 : 256 × 64`, `b2 : 64`:
    `hidden  = max (adj · (x · w1) + b1, 0)`        (the bias added to every row, the maximum entry by entry),
    `output  = adj · (hidden · w2) + b2`.
  The products are `MatProd.mm`; nothing is re-associated, so no law of the extended reals is needed to compare two
  programs that both follow this grouping: only that each of their products is the same sum.
-/
import proofs.«104947_j40690520162672_1_alg».proof.Proof.LibMatProd

noncomputable section

namespace GraphConv

open Idealize.ShloMosaic Idealize.ShloMosaic.ValueIdx MatProd

/-- A length-`m` vector added to every row of an `n × m` array. -/
def addRow {n m : ℕ} (A : (⟨2, ![n, m]⟩ : Shape).Idx → EReal) (b : (⟨1, ![m]⟩ : Shape).Idx → EReal) :
    (⟨2, ![n, m]⟩ : Shape).Idx → EReal :=
  fun i => A i + b (ix1 ⟨(i 1).val, idx2_lt1 i⟩)

/-- At coordinates `(p, q)` the row-sum reads `A (p, q) + b q`. -/
theorem addRow_ix2 {n m : ℕ} (A : (⟨2, ![n, m]⟩ : Shape).Idx → EReal) (b : (⟨1, ![m]⟩ : Shape).Idx → EReal)
    (p : Fin n) (q : Fin m) : addRow A b (ix2 p q) = A (ix2 p q) + b (ix1 q) := rfl

/-- The first layer: `max (adj · (x · w1) + b1, 0)`. -/
def hidden (x : (⟨2, ![10000, 512]⟩ : Shape).Idx → EReal) (adj : (⟨2, ![10000, 10000]⟩ : Shape).Idx → EReal)
    (w1 : (⟨2, ![512, 256]⟩ : Shape).Idx → EReal) (b1 : (⟨1, ![256]⟩ : Shape).Idx → EReal) :
    (⟨2, ![10000, 256]⟩ : Shape).Idx → EReal :=
  fun i => max (addRow (mm adj (mm x w1)) b1 i) 0

/-- The second layer on top of the first: `adj · (hidden · w2) + b2`. -/
def output (x : (⟨2, ![10000, 512]⟩ : Shape).Idx → EReal) (adj : (⟨2, ![10000, 10000]⟩ : Shape).Idx → EReal)
    (w1 : (⟨2, ![512, 256]⟩ : Shape).Idx → EReal) (b1 : (⟨1, ![256]⟩ : Shape).Idx → EReal)
    (w2 : (⟨2, ![256, 64]⟩ : Shape).Idx → EReal) (b2 : (⟨1, ![64]⟩ : Shape).Idx → EReal) :
    (⟨2, ![10000, 64]⟩ : Shape).Idx → EReal :=
  addRow (mm adj (mm (hidden x adj w1 b1) w2)) b2

end GraphConv

end
-- ==== Proof.KFold.lean ====
/-
  The fold through the kernel program, read back to the six arguments.

  Between the launch and the return the program's buffers pass eight boundaries: after the two weight casts, after each
  of the four regions, and after each of the two bias reshapes.  A host stretch changes only the buffers it writes (a
  cast weight is the weight itself as an extended real; a reshaped bias read at `(0, q)` is the bias at `q`); a region
  changes only its result array, which ends at the whole-array function of the arrays it read.  Walking each array a
  region reads back to the launch memory gives, boundary by boundary:
    after region 0 the product `x · w1`; after region 1 `hidden`; after region 2 `hidden · w2`; after region 3 `output`.
-/
import proofs.«104947_j40690520162672_1_alg».proof.Proof.KRun
import proofs.«104947_j40690520162672_1_alg».proof.Proof.KRegion0
import proofs.«104947_j40690520162672_1_alg».proof.Proof.KRegion1
import proofs.«104947_j40690520162672_1_alg».proof.Proof.KRegion2
import proofs.«104947_j40690520162672_1_alg».proof.Proof.KRegion3
import proofs.«104947_j40690520162672_1_alg».proof.Proof.Spec
import Idealize.ShloMosaic.Lib.StableHlo.Run
import Idealize.ShloMosaic.Lib.ValueLayout

set_option maxRecDepth 16384

noncomputable section

namespace Cert.KernelIdeal.Fold

open Cert.KernelIdeal Cert.KernelIdeal.Gen Idealize.ShloMosaic Idealize.ShloMosaic.TcCoe
open Idealize.ShloMosaic.ValueIdx MatProd GraphConv Idealize.SL.Sem Idealize.ShloMosaic.StableHlo
open Idealize.ShloMosaic.Pipeline (Dat)

variable (m : (ℓ : Loc nD τ sig) → Buf (Elt Ideal) ℓ) (ρ : Dev nD → PrngReg)

/-! ## After the two weight casts -/

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg1 (c : Dev nD) : W1 m ρ c (Proc.devRef .tc main_arg1) = (m ((c : Thread nD τ).loc main_arg1)) := by
  show StableHlo.after hostOps0 (W0 m ρ c) (Proc.devRef .tc main_arg1) = _
  after_results

theorem W1_arg3 (c : Dev nD) : W1 m ρ c (Proc.devRef .tc main_arg3) = (m ((c : Thread nD τ).loc main_arg3)) := by
  show StableHlo.after hostOps0 (W0 m ρ c) (Proc.devRef .tc main_arg3) = _
  after_results

theorem W1_arg5 (c : Dev nD) : W1 m ρ c (Proc.devRef .tc main_arg5) = (m ((c : Thread nD τ).loc main_arg5)) := by
  show StableHlo.after hostOps0 (W0 m ρ c) (Proc.devRef .tc main_arg5) = _
  after_results

/-- The first weight, cast, is the weight. -/
theorem W1_v0 (c : Dev nD) : (W1 m ρ c (Proc.devRef .tc main_v0) : S512x256.Idx → EReal) = (m ((c : Thread nD τ).loc main_arg2)) := by
  show StableHlo.after hostOps0 (W0 m ρ c) (Proc.devRef .tc main_v0) = _
  after_results
  rfl

/-- The second weight, cast, is the weight. -/
theorem W1_v1 (c : Dev nD) : (W1 m ρ c (Proc.devRef .tc main_v1) : S256x64.Idx → EReal) = (m ((c : Thread nD τ).loc main_arg4)) := by
  show StableHlo.after hostOps0 (W0 m ρ c) (Proc.devRef .tc main_v1) = _
  after_results
  rfl

/-! ## After region 0 -/

/-- Region 0 leaves `x · w1`. -/
theorem W2_v2 (c : Dev nD) : (W2 m ρ c (Proc.devRef .tc main_v2) : S10000x256.Idx → EReal) = mm (m ((c : Thread nD τ).loc main_arg0)) (m ((c : Thread nD τ).loc main_arg2)) := by
  refine (W2_arr m ρ c 2).trans ((Region0.array (V1 m ρ) c).trans ?_)
  show mm (W1 m ρ c (Proc.devRef .tc main_arg0)) (W1 m ρ c (Proc.devRef .tc main_v0)) = _
  rw [W1_arg0, W1_v0]

theorem W2_arg1 (c : Dev nD) : W2 m ρ c (Proc.devRef .tc main_arg1) = (m ((c : Thread nD τ).loc main_arg1)) :=
  (W2_of_ne m ρ c main_arg1 (by decide)).trans (W1_arg1 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_v1 (c : Dev nD) : (W2 m ρ c (Proc.devRef .tc main_v1) : S256x64.Idx → EReal) = (m ((c : Thread nD τ).loc main_arg4)) :=
  (W2_of_ne m ρ c main_v1 (by decide)).trans (W1_v1 m ρ c)

/-! ## After the first bias reshape -/

theorem W3_arg1 (c : Dev nD) : W3 m ρ c (Proc.devRef .tc main_arg1) = (m ((c : Thread nD τ).loc main_arg1)) := by
  show StableHlo.after hostOps1 (W2 m ρ c) (Proc.devRef .tc main_arg1) = _
  after_results
  exact W2_arg1 m ρ c

theorem W3_arg5 (c : Dev nD) : W3 m ρ c (Proc.devRef .tc main_arg5) = (m ((c : Thread nD τ).loc main_arg5)) := by
  show StableHlo.after hostOps1 (W2 m ρ c) (Proc.devRef .tc main_arg5) = _
  after_results
  exact W2_arg5 m ρ c

theorem W3_v1 (c : Dev nD) : (W3 m ρ c (Proc.devRef .tc main_v1) : S256x64.Idx → EReal) = (m ((c : Thread nD τ).loc main_arg4)) := by
  show StableHlo.after hostOps1 (W2 m ρ c) (Proc.devRef .tc main_v1) = _
  after_results
  exact W2_v1 m ρ c

theorem W3_v2 (c : Dev nD) : (W3 m ρ c (Proc.devRef .tc main_v2) : S10000x256.Idx → EReal) = mm (m ((c : Thread nD τ).loc main_arg0)) (m ((c : Thread nD τ).loc main_arg2)) := by
  show StableHlo.after hostOps1 (W2 m ρ c) (Proc.devRef .tc main_v2) = _
  after_results
  exact W2_v2 m ρ c

/-- The first bias with a leading unit axis reads, at `(0, q)`, the bias at `q`. -/
theorem W3_v3 (c : Dev nD) (q : Fin 256) :
    (W3 m ρ c (Proc.devRef .tc main_v3) : S1x256.Idx → EReal) (ix2 (0 : Fin 1) q) = (m ((c : Thread nD τ).loc main_arg3)) (ix1 q) := by
  show StableHlo.after hostOps1 (W2 m ρ c) (Proc.devRef .tc main_v3) (ix2 (0 : Fin 1) q) = _
  after_results
  show shapeCast S1x256 (W2 m ρ c (Proc.devRef .tc main_arg3)) shapeCasts_S256_S1x256 (ix2 (0 : Fin 1) q) = _
  rw [shapeCast_a_1a_apply, W2_arg3]

/-! ## After region 1 -/

/-- Region 1 leaves `hidden`. -/
theorem W4_v4 (c : Dev nD) : (W4 m ρ c (Proc.devRef .tc main_v4) : S10000x256.Idx → EReal) = hidden (m ((c : Thread nD τ).loc main_arg0)) (m ((c : Thread nD τ).loc main_arg1)) (m ((c : Thread nD τ).loc main_arg2)) (m ((c : Thread nD τ).loc main_arg3)) := by
  refine (W4_arr m ρ c 3).trans ((Region1.array (V3 m ρ) c).trans ?_)
  show Region1.res (W3 m ρ c (Proc.devRef .tc main_arg1)) (W3 m ρ c (Proc.devRef .tc main_v2)) (W3 m ρ c (Proc.devRef .tc main_v3)) = _
  rw [W3_arg1, W3_v2]
  funext i
  show max (mm (m ((c : Thread nD τ).loc main_arg1)) (mm (m ((c : Thread nD τ).loc main_arg0)) (m ((c : Thread nD τ).loc main_arg2))) i
    + (W3 m ρ c (Proc.devRef .tc main_v3) : S1x256.Idx → EReal) (ix2 (0 : Fin 1) ⟨(i 1).val, idx2_lt1 i⟩)) 0 = _
  rw [W3_v3]
  rfl

theorem W4_v1 (c : Dev nD) : (W4 m ρ c (Proc.devRef .tc main_v1) : S256x64.Idx → EReal) = (m ((c : Thread nD τ).loc main_arg4)) :=
  (W4_of_ne m ρ c main_v1 (by decide)).trans (W3_v1 m ρ c)
theorem W4_arg5 (c : Dev nD) : W4 m ρ c (Proc.devRef .tc main_arg5) = (m ((c : Thread nD τ).loc main_arg5)) :=
  (W4_of_ne m ρ c main_arg5 (by decide)).trans (W3_arg5 m ρ c)
/-- The square array is an input of region 1: it leaves the region as it entered. -/
theorem W4_arg1 (c : Dev nD) : W4 m ρ c (Proc.devRef .tc main_arg1) = (m ((c : Thread nD τ).loc main_arg1)) :=
  (W4_arr m ρ c 0).trans (((dat1 (V3 m ρ) c).arrAt_in 0 rfl _).trans ((A_eq1 (V3 m ρ) c 0).trans (W3_arg1 m ρ c)))

/-! ## After region 2 -/

/-- Region 2 leaves `hidden · w2`. -/
theorem W5_v5 (c : Dev nD) : (W5 m ρ c (Proc.devRef .tc main_v5) : S10000x64.Idx → EReal)
    = mm (hidden (m ((c : Thread nD τ).loc main_arg0)) (m ((c : Thread nD τ).loc main_arg1)) (m ((c : Thread nD τ).loc main_arg2)) (m ((c : Thread nD τ).loc main_arg3))) (m ((c : Thread nD τ).loc main_arg4)) := by
  refine (W5_arr m ρ c 2).trans ((Region2.array (V4 m ρ) c).trans ?_)
  show mm (W4 m ρ c (Proc.devRef .tc main_v4)) (W4 m ρ c (Proc.devRef .tc main_v1)) = _
  rw [W4_v4, W4_v1]

theorem W5_arg1 (c : Dev nD) : W5 m ρ c (Proc.devRef .tc main_arg1) = (m ((c : Thread nD τ).loc main_arg1)) :=
  (W5_of_ne m ρ c main_arg1 (by decide)).trans (W4_arg1 m ρ c)
theorem W5_arg5 (c : Dev nD) : W5 m ρ c (Proc.devRef .tc main_arg5) = (m ((c : Thread nD τ).loc main_arg5)) :=
  (W5_of_ne m ρ c main_arg5 (by decide)).trans (W4_arg5 m ρ c)

/-! ## After the second bias reshape -/

theorem W6_arg1 (c : Dev nD) : W6 m ρ c (Proc.devRef .tc main_arg1) = (m ((c : Thread nD τ).loc main_arg1)) := by
  show StableHlo.after hostOps3 (W5 m ρ c) (Proc.devRef .tc main_arg1) = _
  after_results
  exact W5_arg1 m ρ c

theorem W6_v5 (c : Dev nD) : (W6 m ρ c (Proc.devRef .tc main_v5) : S10000x64.Idx → EReal)
    = mm (hidden (m ((c : Thread nD τ).loc main_arg0)) (m ((c : Thread nD τ).loc main_arg1)) (m ((c : Thread nD τ).loc main_arg2)) (m ((c : Thread nD τ).loc main_arg3))) (m ((c : Thread nD τ).loc main_arg4)) := by
  show StableHlo.after hostOps3 (W5 m ρ c) (Proc.devRef .tc main_v5) = _
  after_results
  exact W5_v5 m ρ c

/-- The second bias with a leading unit axis reads, at `(0, q)`, the bias at `q`. -/
theorem W6_v6 (c : Dev nD) (q : Fin 64) :
    (W6 m ρ c (Proc.devRef .tc main_v6) : S1x64.Idx → EReal) (ix2 (0 : Fin 1) q) = (m ((c : Thread nD τ).loc main_arg5)) (ix1 q) := by
  show StableHlo.after hostOps3 (W5 m ρ c) (Proc.devRef .tc main_v6) (ix2 (0 : Fin 1) q) = _
  after_results
  show shapeCast S1x64 (W5 m ρ c (Proc.devRef .tc main_arg5)) shapeCasts_S64_S1x64 (ix2 (0 : Fin 1) q) = _
  rw [shapeCast_a_1a_apply, W5_arg5]

/-! ## After region 3: the result -/

/-- Region 3 leaves `output`. -/
theorem W7_v7 (c : Dev nD) : (W7 m ρ c (Proc.devRef .tc main_v7) : S10000x64.Idx → EReal)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 3).trans ((Region3.array (V6 m ρ) c).trans ?_)
  show Region3.res (W6 m ρ c (Proc.devRef .tc main_arg1)) (W6 m ρ c (Proc.devRef .tc main_v5)) (W6 m ρ c (Proc.devRef .tc main_v6)) = _
  rw [W6_arg1, W6_v5]
  funext i
  show mm (m ((c : Thread nD τ).loc main_arg1)) (mm (hidden (m ((c : Thread nD τ).loc main_arg0)) (m ((c : Thread nD τ).loc main_arg1)) (m ((c : Thread nD τ).loc main_arg2)) (m ((c : Thread nD τ).loc main_arg3))) (m ((c : Thread nD τ).loc main_arg4))) i
    + (W6 m ρ c (Proc.devRef .tc main_v6) : S1x64.Idx → EReal) (ix2 (0 : Fin 1) ⟨(i 1).val, idx2_lt1 i⟩) = _
  rw [W6_v6]
  rfl

/-! ## The run, read -/

/-- Every weakly fair execution of the kernel program terminates without a fault, with the result buffer at
    `output` of the launch contents of the six arguments, and the arguments unchanged. -/
theorem run : θ_run defs (onTc (τ := τ) (main (F := Ideal))) ⟨m, fun _ => 0, ρ⟩ (fun r => ∀ c : Dev nD,
      r.2.mem ((c.tc : Thread nD τ).loc main_v7) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v7 m ρ c), (h c).2⟩) (Whole.run m ρ)

end Cert.KernelIdeal.Fold

end
-- ==== Proof.RefSide.lean ====
/-
  The reference program, stage by stage, is the specification.

  Each of its four products reads, at an index `i`, the sum over `l` of the left operand at `(row of i, l)` times the
  right operand at `(l, column of i)`: that is `MatProd.mm`.  Each bias is first given a leading unit axis and then
  repeated along it, so at `i` it reads the bias at the column of `i`.  The maximum is taken against the zero word,
  which is the extended real `0`.  Composing the stages in program order gives `GraphConv.output`.
-/
import proofs.«104947_j40690520162672_1_alg».proof.Proof.Gen.ReferenceIdeal.Read
import proofs.«104947_j40690520162672_1_alg».proof.Proof.Spec

noncomputable section

namespace Cert.ReferenceIdeal.Bridge

open Cert.ReferenceIdeal Cert.ReferenceIdeal.Read Idealize.ShloMosaic Idealize.ShloMosaic.ValueIdx MatProd GraphConv

/-- `x · w1`. -/
theorem v0_eq (x0 : (⟨S10000x512, .f32⟩ : BufTy).Contents (Elt Ideal)) (x2 : (⟨S512x256, .f32⟩ : BufTy).Contents (Elt Ideal)) :
    val_main_v0 (F := Ideal) x0 x2 = mm x0 x2 := by
  funext i
  rw [val_main_v0_apply]
  exact sum_eq_mm x0 x2 i _ _
    (fun l => funext fun a => Fin.ext (by match a with | ⟨0, _⟩ => rfl | ⟨1, _⟩ => rfl))
    (fun l => funext fun a => Fin.ext (by match a with | ⟨0, _⟩ => rfl | ⟨1, _⟩ => rfl))

/-- `adj · (x · w1)`. -/
theorem v1_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) :
    val_main_v1 (F := Ideal) x0 x1 x2 = mm x1 (mm x0 x2) := by
  funext i
  rw [val_main_v1_apply, v0_eq]
  exact sum_eq_mm x1 (mm x0 x2) i _ _
    (fun l => funext fun a => Fin.ext (by match a with | ⟨0, _⟩ => rfl | ⟨1, _⟩ => rfl))
    (fun l => funext fun a => Fin.ext (by match a with | ⟨0, _⟩ => rfl | ⟨1, _⟩ => rfl))

/-- The first bias, repeated along the rows, reads the bias at the column. -/
theorem v3_at (x3 : (⟨S256, .f32⟩ : BufTy).Contents (Elt Ideal)) (i : S10000x256.Idx) :
    val_main_v3 (F := Ideal) x3 i = x3 (ix1 ⟨(i 1).val, idx2_lt1 i⟩) := by
  rw [val_main_v3_apply, val_main_v2_apply]
  exact congrArg x3 (funext fun a => Fin.ext (by match a with | ⟨0, _⟩ => rfl))

/-- The first layer. -/
theorem v6_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal)) :
    val_main_v6 (F := Ideal) x0 x1 x2 x3 = hidden x0 x1 x2 x3 := by
  funext i
  rw [val_main_v6_apply, val_main_v4_apply, val_main_v5_apply, val_main_cst_apply, v1_eq, v3_at]
  show max (mm x1 (mm x0 x2) i + x3 (ix1 ⟨(i 1).val, idx2_lt1 i⟩)) (Ideal.ofBits .f32 0x00000000#32) = _
  rw [Ideal.ofBits_zero_f32]
  rfl

/-- `hidden · w2`. -/
theorem v7_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) :
    val_main_v7 (F := Ideal) x0 x1 x2 x3 x4 = mm (hidden x0 x1 x2 x3) x4 := by
  funext i
  rw [val_main_v7_apply, v6_eq]
  exact sum_eq_mm (hidden x0 x1 x2 x3) x4 i _ _
    (fun l => funext fun a => Fin.ext (by match a with | ⟨0, _⟩ => rfl | ⟨1, _⟩ => rfl))
    (fun l => funext fun a => Fin.ext (by match a with | ⟨0, _⟩ => rfl | ⟨1, _⟩ => rfl))

/-- `adj · (hidden · w2)`. -/
theorem v8_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) :
    val_main_v8 (F := Ideal) x0 x1 x2 x3 x4 = mm x1 (mm (hidden x0 x1 x2 x3) x4) := by
  funext i
  rw [val_main_v8_apply, v7_eq]
  exact sum_eq_mm x1 (mm (hidden x0 x1 x2 x3) x4) i _ _
    (fun l => funext fun a => Fin.ext (by match a with | ⟨0, _⟩ => rfl | ⟨1, _⟩ => rfl))
    (fun l => funext fun a => Fin.ext (by match a with | ⟨0, _⟩ => rfl | ⟨1, _⟩ => rfl))

/-- The second bias, repeated along the rows, reads the bias at the column. -/
theorem v10_at (x5 : (⟨S64, .f32⟩ : BufTy).Contents (Elt Ideal)) (i : S10000x64.Idx) :
    val_main_v10 (F := Ideal) x5 i = x5 (ix1 ⟨(i 1).val, idx2_lt1 i⟩) := by
  rw [val_main_v10_apply, val_main_v9_apply]
  exact congrArg x5 (funext fun a => Fin.ext (by match a with | ⟨0, _⟩ => rfl))

/-- The reference's result is the specification's output. -/
theorem result_eq (x0 : (⟨S10000x512, .f32⟩ : BufTy).Contents (Elt Ideal)) (x1 : (⟨S10000x10000, .f32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v11 (F := Ideal) x0 x1 x2 x3 x4 x5 = output x0 x1 x2 x3 x4 x5 := by
  funext i
  rw [val_main_v11_apply, v8_eq, v10_at]
  rfl

end Cert.ReferenceIdeal.Bridge

end
-- ==== Proof.lean ====
/-
  A two-layer graph convolution, tiled, against its plain reference: equal over the extended reals.

  With `x : 10000 × 512`, `adj : 10000 × 10000`, weights `w1 : 512 × 256`, `w2 : 256 × 64` and biases `b1`, `b2`, both programs
  compute
      hidden = max (adj · (x · w1) + b1, 0),      output = adj · (hidden · w2) + b2,
  with the same grouping of the products.  The kernel program does it in four regions: `x · w1` in ten row stripes,
  `max (adj · _ + b1, 0)` in fifty, `hidden · w2` in ten, `adj · _ + b2` in fifty; each stripe multiplies onto a zero
  accumulator over the WHOLE contracted axis, so each stripe's block is the same rows of one whole-array product and the
  stripes cover the rows.  Its changes of float format are the identity on extended reals; its biases are reshaped to one
  row and repeated down a stripe, the reference's are repeated down the whole array: either way entry `(r, q)` gets the bias
  at `q`.  No sum is re-ordered or re-associated between the two programs, so no law of the extended reals beyond
  `0 + s = s` is used and the finiteness of the inputs is not needed.

  The modules: `LibMatProd` (the product entry by entry, and a matrix unit's product onto zero as that sum), `Spec` (the
  two layers as whole-array functions), `RefSide` (the reference's stages are the specification), `KPay` (what each body
  stores, at coordinates), `KRegion0` … `KRegion3` (the array each region leaves, from its blocks), `KRun` (the kernel
  program's run with its result named), `KFold` (the buffers boundary by boundary, back to the arguments).  Here: the claims.
-/
import proofs.«104947_j40690520162672_1_alg».proof.Defs
import proofs.«104947_j40690520162672_1_alg».proof.Proof.Gen.Kernel
import proofs.«104947_j40690520162672_1_alg».proof.Proof.Gen.Kernel.Skeleton
import proofs.«104947_j40690520162672_1_alg».proof.Proof.Gen.Kernel.Launch
import proofs.«104947_j40690520162672_1_alg».proof.Proof.Gen.Kernel.Points
import proofs.«104947_j40690520162672_1_alg».proof.Proof.Gen.Kernel.Frame
import proofs.«104947_j40690520162672_1_alg».proof.Proof.Gen.KernelIdeal
import proofs.«104947_j40690520162672_1_alg».proof.Proof.Gen.KernelIdeal.Skeleton
import proofs.«104947_j40690520162672_1_alg».proof.Proof.Gen.KernelIdeal.Launch
import proofs.«104947_j40690520162672_1_alg».proof.Proof.Gen.KernelIdeal.Points
import proofs.«104947_j40690520162672_1_alg».proof.Proof.Gen.KernelIdeal.Frame
import proofs.«104947_j40690520162672_1_alg».proof.Proof.Gen.ReferenceIdeal
import proofs.«104947_j40690520162672_1_alg».proof.Proof.Gen.ReferenceIdeal.Run
import proofs.«104947_j40690520162672_1_alg».proof.Proof.Gen.ReferenceIdeal.Read
import proofs.«104947_j40690520162672_1_alg».proof.Proof.Gen.Pre_finite_inputs
import proofs.«104947_j40690520162672_1_alg».proof.Proof.KFold
import proofs.«104947_j40690520162672_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel program was rewritten to read it over the extended reals: there is nothing to restate. -/
theorem preserves : Cert.preserves_Kernel_KernelIdeal := trivial

/-- From memories agreeing on the six arguments, the kernel program's result array ends at `output` of the arguments
    (the fold through its four regions) and the reference's at its composed stages, which are `output` of the same
    arguments: equal element by element. -/
theorem algebraic : Cert.algebraic_KernelIdeal_ReferenceIdeal := by
  intro m ρ m' ρ' _ hagree
  refine ⟨fun c => GraphConv.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v11_eq, Cert.ReferenceIdeal.Bridge.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
